-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x14336 : Shape := ⟨2, ![4096, 14336]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x14336 : S_.BroadcastsInDim S4096x14336 (![] : Fin 0 → Fin S4096x14336.rank)
  reducesTo_S4096x14336_S_d0_1 : S4096x14336.ReducesTo [0, 1] S_

variable [Facts]

def fn_part1 {F : FTy → Type} [FloatOps F] (main_v13 : IVec S_ 1) (main_v16 : IVec S4096x14336 1) : IVec S_ 1 :=
  let main_c_5 : IVec S_ 1 := constantI S_ 1 1#1
  let main_v17 : IVec S_ 1 := (fun x v => Host.reduce IntOp.andi x v reducesTo_S4096x14336_S_d0_1 h_S_) main_v16 main_c_5
  let main_v18 : IVec S_ 1 := andi main_v13 main_v17
  main_v18

def fn {F : FTy → Type} [FloatOps F] (main_arg0 : FVec F S4096x4096 .f32) (main_arg1 : FVec F S4096x14336 .f32) (main_arg2 : FVec F S4096x14336 .f32) (main_arg3 : FVec F S4096x14336 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x14336 .f32 := Host.absf main_arg1
  let main_cst_0 : FVec F S_ .f32 := constant S_ .f32 0x7F800000#32
  let main_v5 : FVec F S4096x14336 .f32 := broadcastInDim S4096x14336 ![] bcast_S_S4096x14336 main_cst_0
  let main_v6 : IVec S4096x14336 1 := cmpf .olt main_v4 main_v5
  let main_c_1 : IVec S_ 1 := constantI S_ 1 1#1
  let main_v7 : IVec S_ 1 := (fun x v => Host.reduce IntOp.andi x v reducesTo_S4096x14336_S_d0_1 h_S_) main_v6 main_c_1
  let main_v8 : IVec S_ 1 := andi main_v3 main_v7
  let main_v9 : FVec F S4096x14336 .f32 := Host.absf main_arg2
  let main_cst_2 : FVec F S_ .f32 := constant S_ .f32 0x7F800000#32
  let main_v10 : FVec F S4096x14336 .f32 := broadcastInDim S4096x14336 ![] bcast_S_S4096x14336 main_cst_2
  let main_v11 : IVec S4096x14336 1 := cmpf .olt main_v9 main_v10
  let main_c_3 : IVec S_ 1 := constantI S_ 1 1#1
  let main_v12 : IVec S_ 1 := (fun x v => Host.reduce IntOp.andi x v reducesTo_S4096x14336_S_d0_1 h_S_) main_v11 main_c_3
  let main_v13 : IVec S_ 1 := andi main_v8 main_v12
  let main_v14 : FVec F S4096x14336 .f32 := Host.absf main_arg3
  let main_cst_4 : FVec F S_ .f32 := constant S_ .f32 0x7F800000#32
  let main_v15 : FVec F S4096x14336 .f32 := broadcastInDim S4096x14336 ![] bcast_S_S4096x14336 main_cst_4
  let main_v16 : IVec S4096x14336 1 := cmpf .olt main_v14 main_v15
  fn_part1 (F := F) main_v13 main_v16
-- ==== Kernel.lean ====
abbrev S4096x4096 : Shape := ⟨2, ![4096, 4096]⟩
abbrev S4096x14336 : Shape := ⟨2, ![4096, 14336]⟩
abbrev S14336x4096 : Shape := ⟨2, ![14336, 4096]⟩
abbrev S512x4096 : Shape := ⟨2, ![512, 4096]⟩
abbrev S4096x256 : Shape := ⟨2, ![4096, 256]⟩
abbrev S256x4096 : Shape := ⟨2, ![256, 4096]⟩
abbrev S512x256 : Shape := ⟨2, ![512, 256]⟩
abbrev S256x512 : Shape := ⟨2, ![256, 512]⟩
abbrev S512x512 : Shape := ⟨2, ![512, 512]⟩

abbrev nBuf : Space → Nat
  | .hbm => 10
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x14336, .f32⟩
  | .hbm, ⟨2, _⟩ => ⟨S4096x14336, .f32⟩
  | .hbm, ⟨3, _⟩ => ⟨S4096x14336, .f32⟩
  | .hbm, ⟨4, _⟩ => ⟨S4096x4096, .bf16⟩
  | .hbm, ⟨5, _⟩ => ⟨S4096x14336, .bf16⟩
  | .hbm, ⟨6, _⟩ => ⟨S4096x14336, .bf16⟩
  | .hbm, ⟨7, _⟩ => ⟨S4096x14336, .bf16⟩
  | .hbm, ⟨8, _⟩ => ⟨S14336x4096, .bf16⟩
  | .hbm, ⟨9, _⟩ => ⟨S4096x4096, .f32⟩
  | .local _ .vmem, ⟨0, _⟩ => ⟨S512x4096, .bf16⟩
  | .local _ .vmem, ⟨1, _⟩ => ⟨S512x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x4096, .bf16⟩
  | .local _ .vmem, ⟨7, _⟩ => ⟨S256x4096, .bf16⟩
  | .local _ .vmem, ⟨8, _⟩ => ⟨S512x4096, .f32⟩
  | .local _ .vmem, ⟨9, _⟩ => ⟨S512x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 56], ![false, false]⟩

def k0_cond1 (i : grid0.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_9 : BitVec 32 := 0#32
  let v17 : BitVec 1 := Scalar.cmpi .ne v16 c0_i32_9
  v17

def k0_cond2 (i : grid0.Coords) : BitVec 1 :=
  let arg1 : BitVec 32 := BitVec.ofNat 32 (i 1).val
  let c0_i32_10 : BitVec 32 := 0#32
  let v18 : BitVec 1 := Scalar.cmpi .ne arg1 c0_i32_10
  let v19 : BitVec 32 := Scalar.extui v18
  let c0_i32_11 : BitVec 32 := 0#32
  let v20 : BitVec 1 := Scalar.cmpi .ne v19 c0_i32_11
  v20

def k0_cond3 (i : grid0.Coords) : BitVec 1 :=
  let arg1 : BitVec 32 := BitVec.ofNat 32 (i 1).val
  let c0_i32_14 : BitVec 32 := 0#32
  let v24 : BitVec 1 := Scalar.cmpi .eq arg1 c0_i32_14
  let v25 : BitVec 32 := Scalar.extui v24
  let c0_i32_15 : BitVec 32 := 0#32
  let v26 : BitVec 1 := Scalar.cmpi .ne v25 c0_i32_15
  v26

def k0_cond4 (i : grid0.Coords) : BitVec 1 :=
  let arg1 : BitVec 32 := BitVec.ofNat 32 (i 1).val
  let c0_i32_16 : BitVec 32 := 0#32
  let v27 : BitVec 1 := Scalar.cmpi .ne arg1 c0_i32_16
  let v28 : BitVec 32 := Scalar.extui v27
  let c0_i32_17 : BitVec 32 := 0#32
  let v29 : BitVec 1 := Scalar.cmpi .ne v28 c0_i32_17
  v29

def k0_cond5 (i : grid0.Coords) : BitVec 1 :=
  let arg1 : BitVec 32 := BitVec.ofNat 32 (i 1).val
  let c0_i32_20 : BitVec 32 := 0#32
  let v33 : BitVec 1 := Scalar.cmpi .eq arg1 c0_i32_20
  let v34 : BitVec 32 := Scalar.extui v33
  let c0_i32_21 : BitVec 32 := 0#32
  let v35 : BitVec 1 := Scalar.cmpi .ne v34 c0_i32_21
  v35

def k0_cond6 (i : grid0.Coords) : BitVec 1 :=
  let arg1 : BitVec 32 := BitVec.ofNat 32 (i 1).val
  let c0_i32_22 : BitVec 32 := 0#32
  let v36 : BitVec 1 := Scalar.cmpi .ne arg1 c0_i32_22
  let v37 : BitVec 32 := Scalar.extui v36
  let c0_i32_23 : BitVec 32 := 0#32
  let v38 : BitVec 1 := Scalar.cmpi .ne v37 c0_i32_23
  v38

def k0_cond7 (i : grid0.Coords) : BitVec 1 :=
  let arg1 : BitVec 32 := BitVec.ofNat 32 (i 1).val
  let c0_i32_26 : BitVec 32 := 0#32
  let v42 : BitVec 1 := Scalar.cmpi .eq arg1 c0_i32_26
  let v43 : BitVec 32 := Scalar.extui v42
  let c0_i32_27 : BitVec 32 := 0#32
  let v44 : BitVec 1 := Scalar.cmpi .ne v43 c0_i32_27
  v44

def k0_cond8 (i : grid0.Coords) : BitVec 1 :=
  let arg1 : BitVec 32 := BitVec.ofNat 32 (i 1).val
  let c0_i32_28 : BitVec 32 := 0#32
  let v45 : BitVec 1 := Scalar.cmpi .ne arg1 c0_i32_28
  let v46 : BitVec 32 := Scalar.extui v45
  let c0_i32_29 : BitVec 32 := 0#32
  let v47 : BitVec 1 := Scalar.cmpi .ne v46 c0_i32_29
  v47

def k0_cond9 (i : grid0.Coords) : BitVec 1 :=
  let arg1 : BitVec 32 := BitVec.ofNat 32 (i 1).val
  let c0_i32_32 : BitVec 32 := 0#32
  let v51 : BitVec 1 := Scalar.cmpi .eq arg1 c0_i32_32
  let v52 : BitVec 32 := Scalar.extui v51
  let c0_i32_33 : BitVec 32 := 0#32
  let v53 : BitVec 1 := Scalar.cmpi .ne v52 c0_i32_33
  v53

def k0_cond10 (i : grid0.Coords) : BitVec 1 :=
  let arg1 : BitVec 32 := BitVec.ofNat 32 (i 1).val
  let c0_i32_34 : BitVec 32 := 0#32
  let v54 : BitVec 1 := Scalar.cmpi .ne arg1 c0_i32_34
  let v55 : BitVec 32 := Scalar.extui v54
  let c0_i32_35 : BitVec 32 := 0#32
  let v56 : BitVec 1 := Scalar.cmpi .ne v55 c0_i32_35
  v56

def k0_cond11 (i : grid0.Coords) : BitVec 1 :=
  let arg1 : BitVec 32 := BitVec.ofNat 32 (i 1).val
  let c0_i32_38 : BitVec 32 := 0#32
  let v60 : BitVec 1 := Scalar.cmpi .eq arg1 c0_i32_38
  let v61 : BitVec 32 := Scalar.extui v60
  let c0_i32_39 : BitVec 32 := 0#32
  let v62 : BitVec 1 := Scalar.cmpi .ne v61 c0_i32_39
  v62

def k0_cond12 (i : grid0.Coords) : BitVec 1 :=
  let arg1 : BitVec 32 := BitVec.ofNat 32 (i 1).val
  let c0_i32_40 : BitVec 32 := 0#32
  let v63 : BitVec 1 := Scalar.cmpi .ne arg1 c0_i32_40
  let v64 : BitVec 32 := Scalar.extui v63
  let c0_i32_41 : BitVec 32 := 0#32
  let v65 : BitVec 1 := Scalar.cmpi .ne v64 c0_i32_41
  v65

def k0_cond13 (i : grid0.Coords) : BitVec 1 :=
  let arg1 : BitVec 32 := BitVec.ofNat 32 (i 1).val
  let c0_i32_44 : BitVec 32 := 0#32
  let v69 : BitVec 1 := Scalar.cmpi .eq arg1 c0_i32_44
  let v70 : BitVec 32 := Scalar.extui v69
  let c0_i32_45 : BitVec 32 := 0#32
  let v71 : BitVec 1 := Scalar.cmpi .ne v70 c0_i32_45
  v71

def k0_cond14 (i : grid0.Coords) : BitVec 1 :=
  let arg1 : BitVec 32 := BitVec.ofNat 32 (i 1).val
  let c0_i32_46 : BitVec 32 := 0#32
  let v72 : BitVec 1 := Scalar.cmpi .ne arg1 c0_i32_46
  let v73 : BitVec 32 := Scalar.extui v72
  let c0_i32_47 : BitVec 32 := 0#32
  let v74 : BitVec 1 := Scalar.cmpi .ne v73 c0_i32_47
  v74

def k0_cond15 (i : grid0.Coords) : BitVec 1 :=
  let arg1 : BitVec 32 := BitVec.ofNat 32 (i 1).val
  let c0_i32_50 : BitVec 32 := 0#32
  let v78 : BitVec 1 := Scalar.cmpi .eq arg1 c0_i32_50
  let v79 : BitVec 32 := Scalar.extui v78
  let c0_i32_51 : BitVec 32 := 0#32
  let v80 : BitVec 1 := Scalar.cmpi .ne v79 c0_i32_51
  v80

def k0_cond16 (i : grid0.Coords) : BitVec 1 :=
  let arg1 : BitVec 32 := BitVec.ofNat 32 (i 1).val
  let c0_i32_52 : BitVec 32 := 0#32
  let v81 : BitVec 1 := Scalar.cmpi .ne arg1 c0_i32_52
  let v82 : BitVec 32 := Scalar.extui v81
  let c0_i32_53 : BitVec 32 := 0#32
  let v83 : BitVec 1 := Scalar.cmpi .ne v82 c0_i32_53
  v83

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  transposes_S4096x14336_S14336x4096_1_0 : S4096x14336.Transposes [1, 0] S14336x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x4096_S256x512_0_0 : ∀ a, (![0, 0] : Fin 2 → Nat) a + S256x512.size a ≤ S256x4096.size a
  h_S256x512 : 0 < S256x512.numel
  shapeCasts_S256x512_S256x512 : S256x512.ShapeCasts S256x512
  inb_S512x4096_S512x512_0_0 : ∀ a, (![0, 0] : Fin 2 → Nat) a + S512x512.size a ≤ S512x4096.size a
  h_S512x512 : 0 < S512x512.numel
  shapeCasts_S512x512_S512x512 : S512x512.ShapeCasts S512x512
  inb_S256x4096_S256x512_0_512 : ∀ a, (![0, 512] : Fin 2 → Nat) a + S256x512.size a ≤ S256x4096.size a
  inb_S512x4096_S512x512_0_512 : ∀ a, (![0, 512] : Fin 2 → Nat) a + S512x512.size a ≤ S512x4096.size a
  inb_S256x4096_S256x512_0_1024 : ∀ a, (![0, 1024] : Fin 2 → Nat) a + S256x512.size a ≤ S256x4096.size a
  inb_S512x4096_S512x512_0_1024 : ∀ a, (![0, 1024] : Fin 2 → Nat) a + S512x512.size a ≤ S512x4096.size a
  inb_S256x4096_S256x512_0_1536 : ∀ a, (![0, 1536] : Fin 2 → Nat) a + S256x512.size a ≤ S256x4096.size a
  inb_S512x4096_S512x512_0_1536 : ∀ a, (![0, 1536] : Fin 2 → Nat) a + S512x512.size a ≤ S512x4096.size a
  inb_S256x4096_S256x512_0_2048 : ∀ a, (![0, 2048] : Fin 2 → Nat) a + S256x512.size a ≤ S256x4096.size a
  inb_S512x4096_S512x512_0_2048 : ∀ a, (![0, 2048] : Fin 2 → Nat) a + S512x512.size a ≤ S512x4096.size a
  inb_S256x4096_S256x512_0_2560 : ∀ a, (![0, 2560] : Fin 2 → Nat) a + S256x512.size a ≤ S256x4096.size a
  inb_S512x4096_S512x512_0_2560 : ∀ a, (![0, 2560] : Fin 2 → Nat) a + S512x512.size a ≤ S512x4096.size a
  inb_S256x4096_S256x512_0_3072 : ∀ a, (![0, 3072] : Fin 2 → Nat) a + S256x512.size a ≤ S256x4096.size a
  inb_S512x4096_S512x512_0_3072 : ∀ a, (![0, 3072] : Fin 2 → Nat) a + S512x512.size a ≤ S512x4096.size a
  inb_S256x4096_S256x512_0_3584 : ∀ a, (![0, 3584] : Fin 2 → Nat) a + S256x512.size a ≤ S256x4096.size a
  inb_S512x4096_S512x512_0_3584 : ∀ a, (![0, 3584] : Fin 2 → Nat) a + S512x512.size a ≤ S512x4096.size a
  dot_S512x4096_S4096x256_S512x256_1_0_0_1_n_n_wf : DotDims.WF S512x4096 S4096x256 S512x256 [1] [0] [0] [1] [] []
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x14336.size a
  hwx0_1 : ∀ i : grid0.Coords, EltTy.bits .bf16 = 32 ∨ (Rect.block (s := S4096x14336) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x14336.size a
  hwx0_2 : ∀ i : grid0.Coords, EltTy.bits .bf16 = 32 ∨ (Rect.block (s := S4096x14336) S4096x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S14336x4096.size a
  hwx0_3 : ∀ i : grid0.Coords, EltTy.bits .bf16 = 32 ∨ (Rect.block (s := S14336x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x4096.size a
  hwx0_4 : ∀ i : grid0.Coords, EltTy.bits .f32 = 32 ∨ (Rect.block (s := S4096x4096) S512x4096.size (cc0_transform_4 i) (hinb0_4 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) && !(k0_cond3 i == 1#1) && !(k0_cond4 i == 1#1) && !(k0_cond5 i == 1#1) && !(k0_cond6 i == 1#1) && !(k0_cond7 i == 1#1) && !(k0_cond8 i == 1#1) && !(k0_cond9 i == 1#1) && !(k0_cond10 i == 1#1) && !(k0_cond11 i == 1#1) && !(k0_cond12 i == 1#1) && !(k0_cond13 i == 1#1) && !(k0_cond14 i == 1#1) && !(k0_cond15 i == 1#1) && !(k0_cond16 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x14336 : Shape := ⟨2, ![4096, 14336]⟩
abbrev S_ : Shape := ⟨0, ![]⟩
abbrev S14336x4096 : Shape := ⟨2, ![14336, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x14336, .f32⟩
  | .hbm, ⟨2, _⟩ => ⟨S4096x14336, .f32⟩
  | .hbm, ⟨3, _⟩ => ⟨S4096x14336, .f32⟩
  | .hbm, ⟨4, _⟩ => ⟨S4096x14336, .f32⟩
  | .hbm, ⟨5, _⟩ => ⟨S4096x14336, .f32⟩
  | .hbm, ⟨6, _⟩ => ⟨S4096x14336, .f32⟩
  | .hbm, ⟨7, _⟩ => ⟨S_, .f32⟩
  | .hbm, ⟨8, _⟩ => ⟨S4096x14336, .f32⟩
  | .hbm, ⟨9, _⟩ => ⟨S4096x14336, .f32⟩
  | .hbm, ⟨10, _⟩ => ⟨S_, .f32⟩
  | .hbm, ⟨11, _⟩ => ⟨S4096x14336, .f32⟩
  | .hbm, ⟨12, _⟩ => ⟨S4096x14336, .f32⟩
  | .hbm, ⟨13, _⟩ => ⟨S4096x14336, .f32⟩
  | .hbm, ⟨14, _⟩ => ⟨S4096x14336, .f32⟩
  | .hbm, ⟨15, _⟩ => ⟨S4096x14336, .f32⟩
  | .hbm, ⟨16, _⟩ => ⟨S14336x4096, .f32⟩
  | .hbm, ⟨17, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]

class Facts₀ : Prop where
  bcast_S_S4096x14336 : S_.BroadcastsInDim S4096x14336 (![] : Fin 0 → Fin S4096x14336.rank)
  transposes_S4096x14336_S14336x4096_1_0 : S4096x14336.Transposes [1, 0] S14336x4096
  dot_S4096x4096_S4096x14336_S4096x14336_1_0_0_1_n_n_wf : DotDims.WF S4096x4096 S4096x14336 S4096x14336 [1] [0] [0] [1] [] []
  dot_S4096x14336_S14336x4096_S4096x4096_1_0_0_1_n_n_wf : DotDims.WF S4096x14336 S14336x4096 S4096x4096 [1] [0] [0] [1] [] []

variable [Facts₀]

def dot_S4096x4096_S4096x14336_S4096x14336_1_0_0_1_n_n : DotDims S4096x4096 S4096x14336 S4096x14336 where
  lhsContracting := [1]
  rhsContracting := [0]
  lhsNonContracting := [0]
  rhsNonContracting := [1]
  lhsBatch := []
  rhsBatch := []
  wf := dot_S4096x4096_S4096x14336_S4096x14336_1_0_0_1_n_n_wf
def dot_S4096x14336_S14336x4096_S4096x4096_1_0_0_1_n_n : DotDims S4096x14336 S14336x4096 S4096x4096 where
  lhsContracting := [1]
  rhsContracting := [0]
  lhsNonContracting := [0]
  rhsNonContracting := [1]
  lhsBatch := []
  rhsBatch := []
  wf := dot_S4096x14336_S14336x4096_S4096x4096_1_0_0_1_n_n_wf

class Facts : Prop extends Facts₀ where

variable [Facts]
-- ==== Proof.K.Cases.lean ====
/-
  The sixteen branches of the kernel body, decided from the grid point.

  The body visits the eight column chunks of the output block in turn. For each chunk it asks twice about the
  second grid coordinate j (the index of the block of the contracted axis): "is j = 0?" guards the plain store of
  the chunk's partial product, "is j ≠ 0?" guards the load-add-store that accumulates it. Both questions are
  scalar chains over the coordinate alone, so each is decided once over the fifty-six values of j: the odd-numbered
  conditions hold exactly at j = 0, the even-numbered ones exactly at j ≠ 0.
-/
import proofs.«125974_j36627481100905_2_alg».proof.Proof.Gen.Kernel.Frame
import proofs.«125974_j36627481100905_2_alg».proof.Proof.Gen.Kernel.Skeleton

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

/-- The chain "j = 0", as the kernel computes it from the coordinate's word, holds exactly at j = 0. -/
theorem isFirst_chain : ∀ j : Fin 56,
    (Scalar.cmpi .ne (Scalar.extui (Scalar.cmpi .eq (BitVec.ofNat 32 j.val) 0#32)) 0#32 = 1#1) ↔ j.val = 0 := by
  decide +kernel

/-- The chain "j ≠ 0" holds exactly at j ≠ 0. -/
theorem isLater_chain : ∀ j : Fin 56,
    (Scalar.cmpi .ne (Scalar.extui (Scalar.cmpi .ne (BitVec.ofNat 32 j.val) 0#32)) 0#32 = 1#1) ↔ j.val ≠ 0 := by
  decide +kernel

theorem cond1_iff (i : grid0.Coords) : k0_cond1 i = 1#1 ↔ (i 1).val = 0 := isFirst_chain (i 1)
theorem cond3_iff (i : grid0.Coords) : k0_cond3 i = 1#1 ↔ (i 1).val = 0 := isFirst_chain (i 1)
theorem cond5_iff (i : grid0.Coords) : k0_cond5 i = 1#1 ↔ (i 1).val = 0 := isFirst_chain (i 1)
theorem cond7_iff (i : grid0.Coords) : k0_cond7 i = 1#1 ↔ (i 1).val = 0 := isFirst_chain (i 1)
theorem cond9_iff (i : grid0.Coords) : k0_cond9 i = 1#1 ↔ (i 1).val = 0 := isFirst_chain (i 1)
theorem cond11_iff (i : grid0.Coords) : k0_cond11 i = 1#1 ↔ (i 1).val = 0 := isFirst_chain (i 1)
theorem cond13_iff (i : grid0.Coords) : k0_cond13 i = 1#1 ↔ (i 1).val = 0 := isFirst_chain (i 1)
theorem cond15_iff (i : grid0.Coords) : k0_cond15 i = 1#1 ↔ (i 1).val = 0 := isFirst_chain (i 1)
theorem cond2_iff (i : grid0.Coords) : k0_cond2 i = 1#1 ↔ (i 1).val ≠ 0 := isLater_chain (i 1)
theorem cond4_iff (i : grid0.Coords) : k0_cond4 i = 1#1 ↔ (i 1).val ≠ 0 := isLater_chain (i 1)
theorem cond6_iff (i : grid0.Coords) : k0_cond6 i = 1#1 ↔ (i 1).val ≠ 0 := isLater_chain (i 1)
theorem cond8_iff (i : grid0.Coords) : k0_cond8 i = 1#1 ↔ (i 1).val ≠ 0 := isLater_chain (i 1)
theorem cond10_iff (i : grid0.Coords) : k0_cond10 i = 1#1 ↔ (i 1).val ≠ 0 := isLater_chain (i 1)
theorem cond12_iff (i : grid0.Coords) : k0_cond12 i = 1#1 ↔ (i 1).val ≠ 0 := isLater_chain (i 1)
theorem cond14_iff (i : grid0.Coords) : k0_cond14 i = 1#1 ↔ (i 1).val ≠ 0 := isLater_chain (i 1)
theorem cond16_iff (i : grid0.Coords) : k0_cond16 i = 1#1 ↔ (i 1).val ≠ 0 := isLater_chain (i 1)

/-- The second coordinate of the grid point numbered t is t mod 56: the grid is 8 × 56, the second axis fastest. -/
theorem coord1_eq : ∀ t : Fin cfg0.N, ((grid0.coords t) 1).val = t.val % 56 :=
  (by decide +kernel : ∀ t : Fin grid0.N, ((grid0.coords t) 1).val = t.val % 56)

/-- The view through which the output block's contents are stated (one of its two staging buffers; the choice
    does not matter, both are whole). -/
abbrev VOut : View sig .tc .vmem S512x4096 .f32 := (Memref.whole cc0_stg4_0 : Memref sig .tc .vmem S512x4096 .f32).view

/-- Each window's current staging memref at point t, as the pipeline passes it to the body, and its wholeness. -/
abbrev ms0 (t : Fin cfg0.N) : Memref sig .tc .vmem S512x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x4096 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x4096 .f32 := win0_4.stage (cfg0.slots t 4)
abbrev hs4 (t : Fin cfg0.N) : (ms4 t).IsWhole := hstage0_4 ((cfg0.slots t 4).cast nbuf0_4)

end Cert.Kernel.Acc

end
-- ==== Proof.K.RunFirst.lean ====
/-
  The body at the first block of the contracted axis (j = 0).

  Holding the four operand blocks and the output block's buffer (at any contents), the body loads the operands,
  and for each of the eight column chunks stores the chunk's partial product into its rectangle of the output
  buffer; the accumulating branches are not taken. What the output buffer ends with is recorded as the list of
  the stores' pieces, which the run finds.
-/
import proofs.«125974_j36627481100905_2_alg».proof.Proof.K.Cases

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The pieces the body's stores leave in the output buffer at j = 0, with the proof that on whole staging
    memrefs — the operands at their contents, the output's at anything — the body runs to the continuation
    holding the operands as they were and the output's buffer with those pieces written. -/
noncomputable def runFirst (c : Dev nD) (i : grid0.Coords)
    (arg2 : Memref sig .tc .vmem S512x4096 .bf16) (harg2 : arg2.IsWhole) (arg3 : Memref sig .tc .vmem S4096x256 .bf16) (harg3 : arg3.IsWhole)
    (arg4 : Memref sig .tc .vmem S4096x256 .bf16) (harg4 : arg4.IsWhole) (arg5 : Memref sig .tc .vmem S256x4096 .bf16) (harg5 : arg5.IsWhole)
    (arg6 : Memref sig .tc .vmem S512x4096 .f32) (harg6 : arg6.IsWhole) (hj : (i 1).val = 0)
    (x0 : Vec F S512x4096 .bf16) (x1 : Vec F S4096x256 .bf16) (x2 : Vec F S4096x256 .bf16) (x3 : Vec F S256x4096 .bf16) :
    { L : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E
              (cc0__expert_glu_kernel i arg2 harg2 arg3 harg3 arg4 harg4 arg5 harg5 arg6 harg6) K } := by
  refine ⟨?_, fun E K => ?run⟩
  case run =>
    have hc1 : k0_cond1 i = 1#1 := (cond1_iff i).mpr hj
    have hc3 : k0_cond3 i = 1#1 := (cond3_iff i).mpr hj
    have hc5 : k0_cond5 i = 1#1 := (cond5_iff i).mpr hj
    have hc7 : k0_cond7 i = 1#1 := (cond7_iff i).mpr hj
    have hc9 : k0_cond9 i = 1#1 := (cond9_iff i).mpr hj
    have hc11 : k0_cond11 i = 1#1 := (cond11_iff i).mpr hj
    have hc13 : k0_cond13 i = 1#1 := (cond13_iff i).mpr hj
    have hc15 : k0_cond15 i = 1#1 := (cond15_iff i).mpr hj
    have hc2 : ¬k0_cond2 i = 1#1 := fun h => (cond2_iff i).mp h hj
    have hc4 : ¬k0_cond4 i = 1#1 := fun h => (cond4_iff i).mp h hj
    have hc6 : ¬k0_cond6 i = 1#1 := fun h => (cond6_iff i).mp h hj
    have hc8 : ¬k0_cond8 i = 1#1 := fun h => (cond8_iff i).mp h hj
    have hc10 : ¬k0_cond10 i = 1#1 := fun h => (cond10_iff i).mp h hj
    have hc12 : ¬k0_cond12 i = 1#1 := fun h => (cond12_iff i).mp h hj
    have hc14 : ¬k0_cond14 i = 1#1 := fun h => (cond14_iff i).mp h hj
    have hc16 : ¬k0_cond16 i = 1#1 := fun h => (cond16_iff i).mp h hj
    simp only [cc0__expert_glu_kernel_eq_skeleton]; unfold cc0__expert_glu_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc1 | exact hc2 | exact hc3 | exact hc4 | exact hc5 | exact hc6 | exact hc7 | exact hc8 | exact hc9 | exact hc10 | exact hc11 | exact hc12 | exact hc13 | exact hc14 | exact hc15 | exact hc16)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Acc

end
-- ==== Proof.K.RunLater.lean ====
/-
  The body at a later block of the contracted axis (j ≠ 0).

  Holding the four operand blocks and the output block's buffer at its running contents, the body loads the
  operands, and for each of the eight column chunks loads the chunk's rectangle of the output buffer, adds the
  chunk's partial product, and stores the sum back; the plain stores are not taken. What the output buffer ends
  with is recorded as the list of the stores' pieces, which the run finds.
-/
import proofs.«125974_j36627481100905_2_alg».proof.Proof.K.RunFirst

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The pieces the body's stores leave in the output buffer at j ≠ 0, with the proof that on whole staging
    memrefs — the operands at their contents, the output's at its running contents — the body runs to the continuation
    holding the operands as they were and the output's buffer with those pieces written. -/
noncomputable def runLater (c : Dev nD) (i : grid0.Coords)
    (arg2 : Memref sig .tc .vmem S512x4096 .bf16) (harg2 : arg2.IsWhole) (arg3 : Memref sig .tc .vmem S4096x256 .bf16) (harg3 : arg3.IsWhole)
    (arg4 : Memref sig .tc .vmem S4096x256 .bf16) (harg4 : arg4.IsWhole) (arg5 : Memref sig .tc .vmem S256x4096 .bf16) (harg5 : arg5.IsWhole)
    (arg6 : Memref sig .tc .vmem S512x4096 .f32) (harg6 : arg6.IsWhole) (hj : (i 1).val ≠ 0)
    (x0 : Vec F S512x4096 .bf16) (x1 : Vec F S4096x256 .bf16) (x2 : Vec F S4096x256 .bf16) (x3 : Vec F S256x4096 .bf16) (xo : Vec F S512x4096 .f32) :
    { L : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E
              (cc0__expert_glu_kernel i arg2 harg2 arg3 harg3 arg4 harg4 arg5 harg5 arg6 harg6) K } := by
  refine ⟨?_, fun E K => ?run⟩
  case run =>
    have hc1 : ¬k0_cond1 i = 1#1 := fun h => hj ((cond1_iff i).mp h)
    have hc3 : ¬k0_cond3 i = 1#1 := fun h => hj ((cond3_iff i).mp h)
    have hc5 : ¬k0_cond5 i = 1#1 := fun h => hj ((cond5_iff i).mp h)
    have hc7 : ¬k0_cond7 i = 1#1 := fun h => hj ((cond7_iff i).mp h)
    have hc9 : ¬k0_cond9 i = 1#1 := fun h => hj ((cond9_iff i).mp h)
    have hc11 : ¬k0_cond11 i = 1#1 := fun h => hj ((cond11_iff i).mp h)
    have hc13 : ¬k0_cond13 i = 1#1 := fun h => hj ((cond13_iff i).mp h)
    have hc15 : ¬k0_cond15 i = 1#1 := fun h => hj ((cond15_iff i).mp h)
    have hc2 : k0_cond2 i = 1#1 := (cond2_iff i).mpr hj
    have hc4 : k0_cond4 i = 1#1 := (cond4_iff i).mpr hj
    have hc6 : k0_cond6 i = 1#1 := (cond6_iff i).mpr hj
    have hc8 : k0_cond8 i = 1#1 := (cond8_iff i).mpr hj
    have hc10 : k0_cond10 i = 1#1 := (cond10_iff i).mpr hj
    have hc12 : k0_cond12 i = 1#1 := (cond12_iff i).mpr hj
    have hc14 : k0_cond14 i = 1#1 := (cond14_iff i).mpr hj
    have hc16 : k0_cond16 i = 1#1 := (cond16_iff i).mpr hj
    simp only [cc0__expert_glu_kernel_eq_skeleton]; unfold cc0__expert_glu_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc1 | exact hc2 | exact hc3 | exact hc4 | exact hc5 | exact hc6 | exact hc7 | exact hc8 | exact hc9 | exact hc10 | exact hc11 | exact hc12 | exact hc13 | exact hc14 | exact hc15 | exact hc16)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Acc

end
-- ==== Proof.K.Frame.lean ====
/-
  The frame of the kernel, and what its output block holds after every grid point.

  The grid is 8 × 56: the first coordinate i picks a block of 512 rows of the output, the second j a block of 256
  entries of the contracted axis. The output block of row-block i stays in one staging buffer for the fifty-six
  points (i, 0), …, (i, 55) and is written back only after the last. So what the buffer holds after a point is
  defined by recursion on the point's number n = 56 i + j: at j = 0 it is what the storing case leaves, at j ≠ 0
  what the accumulating case leaves on top of what point n − 1 left. With that as the proof data, the body meets
  its obligation at every point (by cases on j = 0), and the pipeline's run follows from the launch theorem; the
  frame claim is the run read at the argument arrays.
-/
import proofs.«125974_j36627481100905_2_alg».proof.Proof.K.RunLater

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At j = 0 the eight stores' rectangles tile the output block, so they cover it. -/
theorem coverFirst (c : Dev nD) (i : grid0.Coords) (arg2 : Memref sig .tc .vmem S512x4096 .bf16) (harg2 : arg2.IsWhole) (arg3 : Memref sig .tc .vmem S4096x256 .bf16) (harg3 : arg3.IsWhole)
    (arg4 : Memref sig .tc .vmem S4096x256 .bf16) (harg4 : arg4.IsWhole) (arg5 : Memref sig .tc .vmem S256x4096 .bf16) (harg5 : arg5.IsWhole)
    (arg6 : Memref sig .tc .vmem S512x4096 .f32) (harg6 : arg6.IsWhole) (hj : (i 1).val = 0)
    (x0 : Vec F S512x4096 .bf16) (x1 : Vec F S4096x256 .bf16) (x2 : Vec F S4096x256 .bf16) (x3 : Vec F S256x4096 .bf16) (y : S512x4096.Idx) :
    ∃ pc ∈ (runFirst c i arg2 harg2 arg3 harg3 arg4 harg4 arg5 harg5 arg6 harg6 hj x0 x1 x2 x3).1, y ∈ pc.1.set :=
  View.cover_of_tiledL (runFirst c i arg2 harg2 arg3 harg3 arg4 harg4 arg5 harg5 arg6 harg6 hj x0 x1 x2 x3).1 S512x512.size (by sl_kernel_rfl) y

/-- What the storing case leaves in the output block's buffer: its pieces read back. -/
def outFirst (c : Dev nD) (i : grid0.Coords) (arg2 : Memref sig .tc .vmem S512x4096 .bf16) (harg2 : arg2.IsWhole) (arg3 : Memref sig .tc .vmem S4096x256 .bf16) (harg3 : arg3.IsWhole)
    (arg4 : Memref sig .tc .vmem S4096x256 .bf16) (harg4 : arg4.IsWhole) (arg5 : Memref sig .tc .vmem S256x4096 .bf16) (harg5 : arg5.IsWhole)
    (arg6 : Memref sig .tc .vmem S512x4096 .f32) (harg6 : arg6.IsWhole) (hj : (i 1).val = 0)
    (x0 : Vec F S512x4096 .bf16) (x1 : Vec F S4096x256 .bf16) (x2 : Vec F S4096x256 .bf16) (x3 : Vec F S256x4096 .bf16) : Vec F S512x4096 .f32 :=
  VOut.read (Elt F) (VOut.writes (Elt F) VOut.junk (runFirst c i arg2 harg2 arg3 harg3 arg4 harg4 arg5 harg5 arg6 harg6 hj x0 x1 x2 x3).1)

/-- At j ≠ 0 the eight stores' rectangles tile the output block too. -/
theorem coverLater (c : Dev nD) (i : grid0.Coords) (arg2 : Memref sig .tc .vmem S512x4096 .bf16) (harg2 : arg2.IsWhole) (arg3 : Memref sig .tc .vmem S4096x256 .bf16) (harg3 : arg3.IsWhole)
    (arg4 : Memref sig .tc .vmem S4096x256 .bf16) (harg4 : arg4.IsWhole) (arg5 : Memref sig .tc .vmem S256x4096 .bf16) (harg5 : arg5.IsWhole)
    (arg6 : Memref sig .tc .vmem S512x4096 .f32) (harg6 : arg6.IsWhole) (hj : (i 1).val ≠ 0)
    (x0 : Vec F S512x4096 .bf16) (x1 : Vec F S4096x256 .bf16) (x2 : Vec F S4096x256 .bf16) (x3 : Vec F S256x4096 .bf16) (xo : Vec F S512x4096 .f32) (y : S512x4096.Idx) :
    ∃ pc ∈ (runLater c i arg2 harg2 arg3 harg3 arg4 harg4 arg5 harg5 arg6 harg6 hj x0 x1 x2 x3 xo).1, y ∈ pc.1.set :=
  View.cover_of_tiledL (runLater c i arg2 harg2 arg3 harg3 arg4 harg4 arg5 harg5 arg6 harg6 hj x0 x1 x2 x3 xo).1 S512x512.size (by sl_kernel_rfl) y

/-- What the accumulating case leaves in the output block's buffer, over its running contents xo. -/
def outLater (c : Dev nD) (i : grid0.Coords) (arg2 : Memref sig .tc .vmem S512x4096 .bf16) (harg2 : arg2.IsWhole) (arg3 : Memref sig .tc .vmem S4096x256 .bf16) (harg3 : arg3.IsWhole)
    (arg4 : Memref sig .tc .vmem S4096x256 .bf16) (harg4 : arg4.IsWhole) (arg5 : Memref sig .tc .vmem S256x4096 .bf16) (harg5 : arg5.IsWhole)
    (arg6 : Memref sig .tc .vmem S512x4096 .f32) (harg6 : arg6.IsWhole) (hj : (i 1).val ≠ 0)
    (x0 : Vec F S512x4096 .bf16) (x1 : Vec F S4096x256 .bf16) (x2 : Vec F S4096x256 .bf16) (x3 : Vec F S256x4096 .bf16) (xo : Vec F S512x4096 .f32) : Vec F S512x4096 .f32 :=
  VOut.read (Elt F) (VOut.writes (Elt F) VOut.junk (runLater c i arg2 harg2 arg3 harg3 arg4 harg4 arg5 harg5 arg6 harg6 hj x0 x1 x2 x3 xo).1)

/-! ## What the output block's buffer holds after each point -/

/-- The accumulation, by recursion on the point's number. -/
def outsAt (c : Dev nD) : (n : ℕ) → n < cfg0.N → Vec F S512x4096 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((coord1_eq ⟨0, hn⟩).trans (Nat.zero_mod _)) (iblk m c 0 ⟨0, hn⟩) (iblk m c 1 ⟨0, hn⟩) (iblk m c 2 ⟨0, hn⟩) (iblk m c 3 ⟨0, hn⟩)
  | n + 1, hn =>
    if h0 : (n + 1) % 56 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((coord1_eq ⟨n + 1, hn⟩).trans h0) (iblk m c 0 ⟨n + 1, hn⟩) (iblk m c 1 ⟨n + 1, hn⟩) (iblk m c 2 ⟨n + 1, hn⟩) (iblk m c 3 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((coord1_eq ⟨n + 1, hn⟩).symm.trans h)) (iblk m c 0 ⟨n + 1, hn⟩) (iblk m c 1 ⟨n + 1, hn⟩) (iblk m c 2 ⟨n + 1, hn⟩) (iblk m c 3 ⟨n + 1, hn⟩)
        (outsAt c n (Nat.lt_of_succ_lt hn))

/-- `outsAt` at a point with j = 0. -/
theorem outsAt_first (c : Dev nD) (t : Fin cfg0.N) (h0 : t.val % 56 = 0) :
    outsAt m c t.val t.isLt = outFirst c (grid0.coords t) (ms0 t) (hs0 t) (ms1 t) (hs1 t) (ms2 t) (hs2 t) (ms3 t) (hs3 t) (ms4 t) (hs4 t) ((coord1_eq t).trans h0) (iblk m c 0 t) (iblk m c 1 t) (iblk m c 2 t) (iblk m c 3 t) := by
  obtain ⟨n, hn⟩ := t
  cases n with
  | zero => exact rfl
  | succ n => exact (dif_pos h0).trans rfl

/-- `outsAt` at a point with j ≠ 0: the accumulating case over what the point before left. -/
theorem outsAt_later (c : Dev nD) (t : Fin cfg0.N) (h0 : ¬t.val % 56 = 0) :
    outsAt m c t.val t.isLt = outLater c (grid0.coords t) (ms0 t) (hs0 t) (ms1 t) (hs1 t) (ms2 t) (hs2 t) (ms3 t) (hs3 t) (ms4 t) (hs4 t) (fun h => h0 ((coord1_eq t).symm.trans h)) (iblk m c 0 t) (iblk m c 1 t) (iblk m c 2 t) (iblk m c 3 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point t each operand's buffer at its block and the
    output's at `outsAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt) := by dsimp only [dats]

/-- Each operand's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The output window is live at every point: whatever j is, one of the two branches of each chunk is taken. -/
theorem live4 (i : grid0.Coords) : cfg0.idle 4 i = false := by
  show idle0 4 i = false
  by_cases hj : (i 1).val = 0
  · have h1 : k0_cond1 i = 1#1 := (cond1_iff i).mpr hj
    simp [idle0, h1]
  · have h2 : k0_cond2 i = 1#1 := (cond2_iff i).mpr hj
    simp [idle0, h2]

/-- At a point with j ≠ 0 the output's current staging buffer holds what the body left at the point before: the
    point is not the first, the buffer was not written back between (write-backs follow j = 55 only), and the
    window is live and uncut. -/
theorem before4_later (c : Dev nD) (t : Fin cfg0.N) (h0 : ¬t.val % 56 = 0) (d) :
    (dats m 0 c).before 4 t d = (outsAt m c (t.val - 1) (Nat.lt_of_le_of_lt (Nat.sub_le _ _) t.isLt)) := by
  have hN : t.val < 448 := lt_of_lt_of_eq t.isLt (show cfg0.N = 448 from N_0)
  rw [Dat.before_out_kept _ 4 rfl t (by omega) (Bool.eq_false_iff.mpr fun h => by have := (flush0_4 _).mp h; dsimp only at this; omega)
    (fun i => live4 i) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the operands' memrefs hold their blocks; by cases on j = 0 the matching run applies,
    at j ≠ 0 over what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases h0 : t.val % 56 = 0
  · rw [outsAt_first m c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((coord1_eq t).trans h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _)
  · rw [outsAt_later m c t h0]
    simp only [before4_later m c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((coord1_eq t).symm.trans h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  rw [live4 (cfg0.grid.coords t)]
  exact sound_body m c t

/-! ## The run and the frame -/

set_option backward.isDefEq.respectTransparency.types false in
/-- Every weakly fair execution of @main terminates, every array of the pipeline ends at what the library computes
    from the proof data, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Acc

end
-- ==== Proof.KI.ArrayValue.lean ====
/-
  The kernel's result array.

  The output block of row-block i is written back once, after point 56 i + 55, when its buffer holds the sum of all
  fifty-six partial products of that row-block: at entry (r, h), the contraction over the hidden axis taken in
  fifty-six blocks of 256, for row 512 i + r and column h. That is block i of ONE function of the arrays, the eight
  blocks tile the 4096 rows, so the array ends at that function. Regrouping the blocked contraction into the plain one
  (the specification's law), and reading the arrays the region finds — x, w1, v1 with their float format changed, which
  is the identity here, and w2 transposed — gives the specification of the four arguments.
-/import proofs.«125974_j36627481100905_2_alg».proof.Proof.KI.PointValue
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Acc

open Idealize.ShloMosaic Idealize.ShloMosaic.TcCoe Idealize.ShloMosaic.ValueIdx
open Idealize.SL Idealize.SL.Sem
open Cert.KernelIdeal Cert.KernelIdeal.Gen

open Idealize.ShloMosaic.Tactic Idealize.ShloMosaic.StableHlo
open Cert.Spec (gatedW term expertOut)

variable (m : (ℓ : Loc nD τ sig) → Buf (Elt Ideal) ℓ) (ρ : Dev nD → PrngReg)

/-- The contraction over the hidden axis taken in fifty-six blocks of 256, as a function of the whole arrays. -/
def blockedOut (A0 : S4096x4096.Idx → EReal) (A1 A2 : S4096x14336.Idx → EReal) (A4 : S14336x4096.Idx → EReal) :
    S4096x4096.Idx → EReal := fun I =>
  ∑ j ∈ Finset.range 56, ∑ f : Fin 256, term A0 A1 A2 A4 (I 0) (I 1) (256 * j + f.val)

theorem lt_N {n : ℕ} (h : n < 448) : n < cfg0.N := lt_of_lt_of_eq h (show cfg0.N = 448 from N_0).symm

/-- What a write-back writes: its block of `blockedOut` of the arrays as the region finds them. -/
theorem flushed_eq (c : Dev nD) (t : Fin cfg0.N) (hf : (cfg0.win 4).flush t = true) :
    (dats m 0 c).flushed 4 t
      = ((cfg0.win 4).blk t).view.read (Elt Ideal) (blockedOut (V m c main_v0) (V m c main_v1) (V m c main_v2) (V m c main_v4)) := by
  have h55 : t.val % 56 = 55 := (flush0_4 t).mp hf
  have hN := point_lt t
  obtain ⟨-, -, -, -, -, -, -, -, e0, e1⟩ := blockIndices t
  show (cfg0.win 4).cut (grid0.coords t) ((dats m 0 c).after 4 t) = _
  rw [after4, outsAt_cast m c (show t.val = 56 * (t.val / 56) + 55 by omega) t.isLt
      (lt_N (by omega)),
    outsAt_closed m c (t.val / 56) 55 (by decide) (lt_N (by omega))]
  funext y
  show (∑ j' ∈ Finset.range (55 + 1), pointProduct (V m c main_v0) (V m c main_v1) (V m c main_v2) (V m c main_v4) (56 * (t.val / 56) + j') y)
      = blockedOut (V m c main_v0) (V m c main_v1) (V m c main_v2) (V m c main_v4) (((cfg0.win 4).blk t).view.emb y)
  unfold blockedOut pointProduct
  refine Finset.sum_congr rfl fun j' hj' => Finset.sum_congr rfl fun f _ => ?_
  have hj : j' < 56 := Finset.mem_range.mp hj'
  have hy0 : (y 0).val < 512 := (y 0).isLt
  rw [show (56 * (t.val / 56) + j') % 56 = j' by omega]
  have hR : rowOf (56 * (t.val / 56) + j') (y 0) = (((cfg0.win 4).blk t).view.emb y) 0 := Fin.ext (by
    show (512 * ((56 * (t.val / 56) + j') / 56) + (y 0).val) % 4096 = win0_4.index t (0 : Fin 2) * 512 + 1 * (y 0).val
    omega)
  have hC : (y 1 : Fin 4096) = (((cfg0.win 4).blk t).view.emb y) 1 := Fin.ext (by
    show (y 1).val = win0_4.index t (1 : Fin 2) * 4096 + 1 * (y 1).val
    omega)
  exact congrFun (congr (congrArg (term (V m c main_v0) (V m c main_v1) (V m c main_v2) (V m c main_v4)) hR) hC) _

/-- An index of the array is in point t's block iff each coordinate is in the block's range on its axis. -/
theorem mem_blk (t : Fin cfg0.N) (I : S4096x4096.Idx) :
    I ∈ ((cfg0.win 4).blk t).view.set ↔ ∀ a : Fin 2, win0_4.index t a * S512x4096.size a ≤ (I a).val
      ∧ (I a).val < win0_4.index t a * S512x4096.size a + S512x4096.size a := by
  show I ∈ ((View.whole main_v5).slice (win0_4.rect t)).set ↔ _
  rw [View.set_slice_whole, Rect.mem_set_unit]
  exact Iff.rfl

/-- Row R lies in the block written back after point 56 (R / 512) + 55. -/
theorem covered (I : S4096x4096.Idx) :
    ∃ t : Fin cfg0.N, (cfg0.win 4).flush t = true ∧ I ∈ ((cfg0.win 4).blk t).view.set := by
  have hI0 : (I 0).val < 4096 := (I 0).isLt
  have hI1 : (I 1).val < 4096 := (I 1).isLt
  have hlt : 56 * ((I 0).val / 512) + 55 < cfg0.N := lt_N (by omega)
  refine ⟨⟨56 * ((I 0).val / 512) + 55, hlt⟩, (flush0_4 _).mpr (by show (56 * ((I 0).val / 512) + 55) % 56 = 55; omega), ?_⟩
  obtain ⟨-, -, -, -, -, -, -, -, e0, e1⟩ := blockIndices ⟨56 * ((I 0).val / 512) + 55, hlt⟩
  have e0' : win0_4.index ⟨56 * ((I 0).val / 512) + 55, hlt⟩ (0 : Fin 2) = (56 * ((I 0).val / 512) + 55) / 56 := e0
  rw [mem_blk]
  intro a
  match a with
  | ⟨0, _⟩ =>
    show win0_4.index ⟨56 * ((I 0).val / 512) + 55, hlt⟩ (0 : Fin 2) * 512 ≤ (I 0).val
      ∧ (I 0).val < win0_4.index ⟨56 * ((I 0).val / 512) + 55, hlt⟩ (0 : Fin 2) * 512 + 512
    omega
  | ⟨1, _⟩ =>
    show win0_4.index ⟨56 * ((I 0).val / 512) + 55, hlt⟩ (1 : Fin 2) * 4096 ≤ (I 1).val
      ∧ (I 1).val < win0_4.index ⟨56 * ((I 0).val / 512) + 55, hlt⟩ (1 : Fin 2) * 4096 + 4096
    omega

/-- The result array after the run, from the arrays as the region finds them. -/
theorem final_blocked (c : Dev nD) :
    (dats m 0 c).arrAt 4 cfg0.N = blockedOut (V m c main_v0) (V m c main_v1) (V m c main_v2) (V m c main_v4) :=
  (dats m 0 c).arrAt_eq_of_cover 4 _ (fun t hf => flushed_eq m c t hf) covered

/-! ## The arrays as the region finds them -/

theorem found_v0 (c : Dev nD) : (V m c main_v0 : S4096x4096.Idx → EReal) = m ((c : Thread nD τ).loc main_arg0) := by
  have e : @Eq (S4096x4096.Idx → EReal) (V m c main_v0)
      (truncf (F := Ideal) (s := S4096x4096) (φ := .f32) .bf16 (m ((c : Thread nD τ).loc main_arg0)) bitsLt_bf16_f32) := by
    dsimp only [Gen.V, Gen.hostOps0]; after_results <;> rfl
  rw [e]; rfl

theorem found_v1 (c : Dev nD) : (V m c main_v1 : S4096x14336.Idx → EReal) = m ((c : Thread nD τ).loc main_arg1) := by
  have e : @Eq (S4096x14336.Idx → EReal) (V m c main_v1)
      (truncf (F := Ideal) (s := S4096x14336) (φ := .f32) .bf16 (m ((c : Thread nD τ).loc main_arg1)) bitsLt_bf16_f32) := by
    dsimp only [Gen.V, Gen.hostOps0]; after_results <;> rfl
  rw [e]; rfl

theorem found_v2 (c : Dev nD) : (V m c main_v2 : S4096x14336.Idx → EReal) = m ((c : Thread nD τ).loc main_arg2) := by
  have e : @Eq (S4096x14336.Idx → EReal) (V m c main_v2)
      (truncf (F := Ideal) (s := S4096x14336) (φ := .f32) .bf16 (m ((c : Thread nD τ).loc main_arg2)) bitsLt_bf16_f32) := by
    dsimp only [Gen.V, Gen.hostOps0]; after_results <;> rfl
  rw [e]; rfl

/-- w2 transposed: entry (n, h) is w2's entry (h, n). -/
theorem found_v4 (c : Dev nD) (n : Fin 14336) (h : Fin 4096) :
    (V m c main_v4 : S14336x4096.Idx → EReal) (ix2 n h) = m ((c : Thread nD τ).loc main_arg3) (ix2 h n) := by
  have e : @Eq (S14336x4096.Idx → EReal) (V m c main_v4)
      (transpose S14336x4096 [1, 0] (truncf (F := Ideal) (s := S4096x14336) (φ := .f32) .bf16 (m ((c : Thread nD τ).loc main_arg3)) bitsLt_bf16_f32)
        transposes_S4096x14336_S14336x4096_1_0) := by
    dsimp only [Gen.V, Gen.hostOps0]; after_results <;> rfl
  rw [e]
  exact transpose_apply [1, 0] _ transposes_S4096x14336_S14336x4096_1_0 (ix2 n h) (ix2 h n) (fun b => match b with
    | ⟨0, _⟩ => rfl
    | ⟨1, _⟩ => rfl)

/-- The result array after the run is the specification of the four arguments. -/
theorem final (c : Dev nD) :
    (dats m 0 c).arrAt 4 cfg0.N
      = expertOut (m ((c : Thread nD τ).loc main_arg0)) (m ((c : Thread nD τ).loc main_arg1))
          (m ((c : Thread nD τ).loc main_arg2)) (m ((c : Thread nD τ).loc main_arg3)) := by
  rw [final_blocked]
  funext I
  obtain ⟨R, h, rfl⟩ : ∃ (R h : Fin 4096), I = ix2 R h := ⟨I 0, I 1, eq_ix2 I⟩
  show (∑ j ∈ Finset.range 56, ∑ f : Fin 256,
        term (V m c main_v0) (V m c main_v1) (V m c main_v2) (V m c main_v4) R h (256 * j + f.val))
      = ∑ n : Fin 14336, gatedW (m ((c : Thread nD τ).loc main_arg0)) (m ((c : Thread nD τ).loc main_arg1))
          (m ((c : Thread nD τ).loc main_arg2)) R n * m ((c : Thread nD τ).loc main_arg3) (ix2 h n)
  rw [Cert.Spec.sum_blocked, found_v0, found_v1, found_v2]
  exact Finset.sum_congr rfl fun n _ => congrArg (_ * ·) (found_v4 m c n h)

/-- The kernel's run: its result at the specification of its arguments, the arguments unchanged. -/
theorem run : θ_run defs (onTc (τ := τ) (main (F := Ideal))) ⟨m, fun _ => 0, ρ⟩ (fun r => ∀ c : Dev nD,
      r.2.mem ((c.tc : Thread nD τ).loc main_v5)
        = expertOut (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Acc

end
-- ==== Proof.LibBlockSum.lean ====
/-
  A sum over the first `J * B` natural numbers, taken block by block.
-/
import Mathlib.Algebra.BigOperators.Fin
import Mathlib.Data.Fintype.BigOperators
import Mathlib.Logic.Equiv.Fin.Basic

namespace Cert.Lib

/-- A sum over the first `J * B` naturals is the sum, over the `J` consecutive blocks of `B` naturals, of each
    block's own sum: `∑_{s < J} ∑_{l < B} f (B·s + l) = ∑_{k < J·B} f k`. It holds in any commutative additive monoid
    — only commutativity and associativity of `+` are used —, so also on the extended reals, where no cancellation or
    distributivity is available: the pairs `(s, l)` and the naturals `B·s + l` below `J·B` correspond one to one. -/
theorem sum_blocks {M : Type*} [AddCommMonoid M] (J B : ℕ) (f : ℕ → M) :
    ∑ s ∈ Finset.range J, ∑ l : Fin B, f (B * s + l.val) = ∑ k : Fin (J * B), f k.val := by
  rw [Finset.sum_range (fun s => ∑ l : Fin B, f (B * s + l.val))]
  rw [← Fintype.sum_prod_type' (fun (s : Fin J) (l : Fin B) => f (B * s.val + l.val))]
  refine Fintype.sum_equiv finProdFinEquiv _ _ (fun x => ?_)
  show f (B * x.1.val + x.2.val) = f (x.2.val + B * x.1.val)
  rw [Nat.add_comm]

end Cert.Lib
-- ==== Proof.Spec.lean ====
/-
  The function both programs compute, and the one law that joins their two arrangements of it.

  For x : [4096, 4096] and w1, v1, w2 : [4096, 14336], over the extended reals,

      out[R, h] = Σ_{n < 14336} gate(R, n) · w2[h, n],
      gate(R, n) = s · logistic(s) · u,   s = Σ_k x[R,k]·w1[k,n],   u = Σ_k x[R,k]·v1[k,n].

  One program takes the sum over n at once; the other takes it in fifty-six consecutive blocks of 256 and adds the
  blocks' sums one after the other. The two agree because a finite sum may be regrouped into consecutive blocks:
  only commutativity and associativity of + are used, which hold on the extended reals, so no finiteness is needed.
-/
import Idealize.ShloMosaic.PureOps.Ideal
import Idealize.ShloMosaic.Lib.ValueIdx
import proofs.«125974_j36627481100905_2_alg».proof.Proof.LibBlockSum

noncomputable section

namespace Cert.Spec

open Idealize.ShloMosaic Idealize.ShloMosaic.ValueIdx

/-- The shapes of x (and of the result), of w1 / v1 / w2, and of w2 transposed. -/
abbrev SX : Shape := ⟨2, ![4096, 4096]⟩
abbrev SW : Shape := ⟨2, ![4096, 14336]⟩
abbrev SU : Shape := ⟨2, ![14336, 4096]⟩

/-- The gated hidden activation at row R and hidden coordinate n. -/
def gatedW (A0 : SX.Idx → EReal) (A1 A2 : SW.Idx → EReal) (R : Fin 4096) (n : Fin 14336) : EReal :=
  (∑ k : Fin 4096, A0 (ix2 R k) * A1 (ix2 k n)) * Ideal.logistic (∑ k : Fin 4096, A0 (ix2 R k) * A1 (ix2 k n))
    * (∑ k : Fin 4096, A0 (ix2 R k) * A2 (ix2 k n))

/-- The expert's output: the gated activations contracted with w2 along the hidden axis. -/
def expertOut (A0 : SX.Idx → EReal) (A1 A2 A3 : SW.Idx → EReal) : SX.Idx → EReal := fun I =>
  ∑ n : Fin 14336, gatedW A0 A1 A2 (I 0) n * A3 (ix2 (I 1) n)

/-- Term number n of the contraction at row R and column h, against the TRANSPOSED w2 (zero past the hidden width,
    so that it is a function of a natural number). -/
def term (A0 : SX.Idx → EReal) (A1 A2 : SW.Idx → EReal) (A4 : SU.Idx → EReal) (R h : Fin 4096) (n : ℕ) : EReal :=
  if hn : n < 14336 then gatedW A0 A1 A2 R ⟨n, hn⟩ * A4 (ix2 ⟨n, hn⟩ h) else 0

/-- The contraction taken in fifty-six blocks of 256 is the contraction. -/
theorem sum_blocked (A0 : SX.Idx → EReal) (A1 A2 : SW.Idx → EReal) (A4 : SU.Idx → EReal) (R h : Fin 4096) :
    ∑ j ∈ Finset.range 56, ∑ f : Fin 256, term A0 A1 A2 A4 R h (256 * j + f.val)
      = ∑ n : Fin 14336, gatedW A0 A1 A2 R n * A4 (ix2 n h) := by
  rw [Cert.Lib.sum_blocks 56 256 (term A0 A1 A2 A4 R h)]
  show ∑ k : Fin 14336, term A0 A1 A2 A4 R h k.val = _
  refine Finset.sum_congr rfl fun n _ => ?_
  unfold term
  rw [dif_pos n.isLt]

end Cert.Spec

end
-- ==== Proof.RefValue.lean ====
/-
  The reference computes the specification.

  Read index by index, the reference's last contraction is Σ_n (silu(x·w1)[R,n] · (x·v1)[R,n]) · w2ᵀ[n,h], where
  silu(s) is spelt s · (1 / (1 + exp(−s))). On the extended reals 1 / (1 + exp(−s)) is the logistic function by
  definition (the literal 0x3F800000 is the number one), the transpose only swaps the two coordinates, and each
  contraction's operand indices are the evident ones. So the term is the specification's, index for index.
-/
import proofs.«125974_j36627481100905_2_alg».proof.Proof.Gen.ReferenceIdeal.Read
import proofs.«125974_j36627481100905_2_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read
open Cert.Spec (gatedW expertOut)

/-- The binary32 pattern 0x3F800000 is the number one. -/
theorem one_f32 : Ideal.ofBits .f32 0x3F800000#32 = 1 := by
  simp [Ideal.ofBits, Ideal.ieee, -EReal.coe_mul]; norm_num

/-- The reference's result, as a function of its four arguments, is the specification. -/
theorem result_eq (x0 : (⟨S4096x4096, .f32⟩ : BufTy).Contents (Elt Ideal)) (x1 x2 x3 : (⟨S4096x14336, .f32⟩ : BufTy).Contents (Elt Ideal)) :
    val_main_v5 (F := Ideal) x0 x1 x2 x3 = expertOut x0 x1 x2 x3 := by
  funext I
  rw [val_main_v5_apply]
  unfold expertOut
  refine Finset.sum_congr rfl fun n _ => ?_
  have eL : ∀ k : Fin 4096, lidx_main_v0 (lidx_main_v5 I n) k = ix2 (I 0) k := fun k =>
    funext fun a => Fin.ext (by match a with | ⟨0, _⟩ => rfl | ⟨1, _⟩ => rfl)
  have eR : ∀ k : Fin 4096, ridx_main_v0 (lidx_main_v5 I n) k = ix2 k n := fun k =>
    funext fun a => Fin.ext (by match a with | ⟨0, _⟩ => rfl | ⟨1, _⟩ => rfl)
  have eL2 : ∀ k : Fin 4096, lidx_main_v2 (lidx_main_v5 I n) k = ix2 (I 0) k := fun k =>
    funext fun a => Fin.ext (by match a with | ⟨0, _⟩ => rfl | ⟨1, _⟩ => rfl)
  have eR2 : ∀ k : Fin 4096, ridx_main_v2 (lidx_main_v5 I n) k = ix2 k n := fun k =>
    funext fun a => Fin.ext (by match a with | ⟨0, _⟩ => rfl | ⟨1, _⟩ => rfl)
  have eT : idx_main_v4 (ridx_main_v5 I n) = ix2 (I 1) n :=
    funext fun a => Fin.ext (by match a with | ⟨0, _⟩ => rfl | ⟨1, _⟩ => rfl)
  rw [val_main_v3_apply, val_main_v1_apply, val_main_call0_v5_apply, val_main_call0_v4_apply, val_main_call0_cst_0_apply,
    val_main_call0_v3_apply, val_main_call0_v2_apply, val_main_call0_cst_apply, val_main_call0_v1_apply,
    val_main_call0_v0_apply, val_main_v0_apply, val_main_v2_apply, val_main_v4_apply]
  simp only [eL, eR, eL2, eR2, eT, Ideal.mulf_def, Ideal.hostDivf_def, Ideal.addf_def, Ideal.hostUnary_exp_def,
    Ideal.hostNegf_def, Ideal.negf_def, Ideal.ofBits_def, one_f32]
  rfl

end Cert.ReferenceIdeal.RefValue

end
-- ==== Proof.lean ====
/-
  A SwiGLU expert, fused and tiled, against its three-matmul definition.

  The kernel computes  out = (silu(x·w1) ⊙ (x·v1)) · w2ᵀ  for x : [4096, 4096] and w1, v1, w2 : [4096, 14336] on an
  8 × 56 grid: point (i, j) forms the gated hidden block of 512 rows by 256 hidden coordinates and multiplies it by
  the matching 256 rows of w2ᵀ, storing the product into the output block of row-block i at j = 0 and adding it at
  j ≠ 0; the block is written back after j = 55. The reference forms the whole [4096, 14336] hidden array and
  contracts it with w2ᵀ once.

  On the extended reals a change of float format is the identity, a matrix product is the plain sum of products, and
  the logistic function is 1 / (1 + exp(−s)) by definition, so both programs' results are, entry by entry,

      out[R, h] = Σ_n gate(R, n) · w2[h, n]

  — the kernel's taken in fifty-six consecutive blocks of 256 added one after the other, the reference's at once.
  A finite sum may be regrouped into consecutive blocks in any commutative monoid, so the two are equal for ALL
  extended-real inputs: the precondition (finite inputs) is never opened.

  The three frames: the two kernels' by running the body symbolically in its two control cases (j = 0, j ≠ 0) with
  the output block's running contents as proof data, under the pipeline library's launch theorem; the reference's is
  its run with the result dropped. The kernel's idealization rewrote nothing, so `preserves` is trivial.
-/
import proofs.«125974_j36627481100905_2_alg».proof.Defs
import proofs.«125974_j36627481100905_2_alg».proof.Proof.Gen.Kernel
import proofs.«125974_j36627481100905_2_alg».proof.Proof.Gen.KernelIdeal
import proofs.«125974_j36627481100905_2_alg».proof.Proof.Gen.ReferenceIdeal
import proofs.«125974_j36627481100905_2_alg».proof.Proof.Gen.Pre_finite_inputs
import proofs.«125974_j36627481100905_2_alg».proof.Proof.Gen.ReferenceIdeal.Run
import proofs.«125974_j36627481100905_2_alg».proof.Proof.Gen.ReferenceIdeal.Read
import proofs.«125974_j36627481100905_2_alg».proof.Proof.K.Frame
import proofs.«125974_j36627481100905_2_alg».proof.Proof.KI.ArrayValue
import proofs.«125974_j36627481100905_2_alg».proof.Proof.RefValue

noncomputable section

namespace Cert.Proof

open Idealize.ShloMosaic Idealize.SL.Sem

/-- The word-level kernel runs to the end, faults nowhere and leaves its arguments unchanged. -/
theorem frame_kernel : Cert.frame_Kernel := fun m ρ _ => Cert.Kernel.Acc.frame m ρ

/-- So does the idealized kernel. -/
theorem frame_kernelIdeal : Cert.frame_KernelIdeal := fun m ρ _ => Cert.KernelIdeal.Acc.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with their result at the specification of the (agreeing) arguments. -/
theorem algebraic : Cert.algebraic_KernelIdeal_ReferenceIdeal := by
  intro m ρ m' ρ' _ hagree
  refine ⟨fun c => Cert.Spec.expertOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
